-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 70
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x1, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x1, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S1x64, .f32⟩
  | .hbm, ⟨69, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v51) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S1600000x1, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call1_cst : Ref sig .tc := ⟨.hbm, 56, rfl⟩
abbrev main_call1_v0 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Layer.lean ====
/-
  The network both programs compute, as ONE function of the argument arrays.

  A graph-convolution layer sends node features `h` (one row per node) to
    relu?( A · (h · W) + b ),
  where `A · y` is the weighted adjacency product written edge by edge: for every edge `e` the row
  `y[src e]` scaled by the edge's weight is added into row `dst e` of a zero array. The edge list is
  one integer array of two rows (sources, destinations); a negative source is counted from the end.
  Three layers are composed, the first two followed by `max · 0`, the third not.

  Every piece is written with the host operations the reference program itself uses, so that the
  reference's composed result term IS `net` of its arguments by unfolding definitions.
-/
import proofs.«148818_j704374637025_1_alg».proof.ReferenceIdeal
import proofs.«148818_j704374637025_1_alg».proof.Proof.Gen.ReferenceIdeal.Run

noncomputable section

namespace Cert.Gcn

open Cert.ReferenceIdeal Cert.ReferenceIdeal.Gen Idealize.ShloMosaic Idealize.ShloMosaic.TcCoe Idealize.SL.Sem

variable {F : FTy → Type} [FloatOps F]

/-- Row `0` of the edge list, as a vector over the edges: the source node of each edge. -/
def edgeSrc (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row `1` of the edge list: the destination node of each edge. -/
def edgeDst (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A negative node number `s` stands for `s + 100000` (numpy's indexing from the end). -/
def wrapNeg (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The weighted adjacency product of `128`-wide rows: gather the source rows, scale each by its edge's
    weight, add each into its destination row of a zero array. -/
def agg128 (h : (⟨S100000x128, .f32⟩ : BufTy).Contents (Elt F)) (s d : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 h
        (broadcastInDim S1600000x1 ![0] bcast_S1600000_S1600000x1_0 (wrapNeg s)))
      (broadcastInDim S1600000x128 ![0, 1] bcast_S1600000x1_S1600000x128_0_1
        (broadcastInDim S1600000x1 ![0] bcast_S1600000_S1600000x1_0 w)))

/-- The same product of `64`-wide rows. -/
def agg64 (h : (⟨S100000x64, .f32⟩ : BufTy).Contents (Elt F)) (s d : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (mulf (Host.gather gather_S100000x64_S1600000x1_S1600000x64_1_0_n_n_0_1_164 h
        (broadcastInDim S1600000x1 ![0] bcast_S1600000_S1600000x1_0 (wrapNeg s)))
      (broadcastInDim S1600000x64 ![0, 1] bcast_S1600000x1_S1600000x64_0_1
        (broadcastInDim S1600000x1 ![0] bcast_S1600000_S1600000x1_0 w)))

/-- The dense product `x · W` into `128` columns. -/
def lin128 (x : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none x W

/-- The dense product `x · W` into `64` columns. -/
def lin64 (x : (⟨S100000x128, .f32⟩ : BufTy).Contents (Elt F)) (W : (⟨S128x64, .f32⟩ : BufTy).Contents (Elt F)) :
    (⟨S100000x64, .f32⟩ : BufTy).Contents (Elt F) :=
  Host.dotGeneral dot_S100000x128_S128x64_S100000x64_1_0_0_1_n_n none x W

/-- A bias given as ONE row `[1, 128]`, added to every row. -/
def addRow128 (a : (⟨S100000x128, .f32⟩ : BufTy).Contents (Elt F)) (r : (⟨S1x128, .f32⟩ : BufTy).Contents (Elt F)) :
    (⟨S100000x128, .f32⟩ : BufTy).Contents (Elt F) :=
  addf a (broadcastInDim S100000x128 ![0, 1] bcast_S1x128_S100000x128_0_1 r)

/-- A bias given as ONE row `[1, 64]`, added to every row. -/
def addRow64 (a : (⟨S100000x64, .f32⟩ : BufTy).Contents (Elt F)) (r : (⟨S1x64, .f32⟩ : BufTy).Contents (Elt F)) :
    (⟨S100000x64, .f32⟩ : BufTy).Contents (Elt F) :=
  addf a (broadcastInDim S100000x64 ![0, 1] bcast_S1x64_S100000x64_0_1 r)

/-- A bias vector laid out as one row. -/
def row128 (b : (⟨S128, .f32⟩ : BufTy).Contents (Elt F)) : (⟨S1x128, .f32⟩ : BufTy).Contents (Elt F) :=
  broadcastInDim S1x128 ![1] bcast_S128_S1x128_1 b

/-- A bias vector laid out as one row. -/
def row64 (b : (⟨S64, .f32⟩ : BufTy).Contents (Elt F)) : (⟨S1x64, .f32⟩ : BufTy).Contents (Elt F) :=
  broadcastInDim S1x64 ![1] bcast_S64_S1x64_1 b

/-- `max · 0`, entry by entry. -/
def relu128 (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The three layers. -/
def net (x : (⟨S100000x128, .f32⟩ : BufTy).Contents (Elt F)) (ei : (⟨S2x1600000, .i32⟩ : BufTy).Contents (Elt F))
    (w : (⟨S1600000, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x64, .f32⟩ : BufTy).Contents (Elt F)) (b3 : (⟨S64, .f32⟩ : BufTy).Contents (Elt F)) :
    (⟨S100000x64, .f32⟩ : BufTy).Contents (Elt F) :=
  let h1 := relu128 (addRow128 (agg128 (lin128 x W1) (edgeSrc ei) (edgeDst ei) w) (row128 b1))
  let h2 := relu128 (addRow128 (agg128 (lin128 h1 W2) (edgeSrc ei) (edgeDst ei) w) (row128 b2))
  addRow64 (agg64 (lin64 h2 W3) (edgeSrc ei) (edgeDst ei) w) (row64 b3)

/-- The reference's composed result term is `net` of its argument arrays: the definitions above are its subterms. -/
theorem reference_is_net (m : (ℓ : Loc nD τ sig) → Buf (Elt F) ℓ) (c : Dev nD) :
    Cert.ReferenceIdeal.Value.res_main_v56 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v56 net relu128 addRow128 addRow64 row128 row64 agg128 agg64 lin128 lin64
    wrapNeg edgeSrc edgeDst
  rfl

end Cert.Gcn

end
-- ==== Proof.KernelRun.lean ====
/-
  The idealized kernel's run with its RESULT named.

  @main is ten segments: four stretches of host operations and six grid regions. The buffer contents at
  each boundary are a fold from the launch memory: a stretch applies its operations, a region replaces its
  arrays by what its write-backs leave. Every weakly fair execution terminates with every unscoped buffer
  at the last boundary's contents; read at the result buffer this names the result, and read at an argument
  it gives back the launch contents.
-/
import proofs.«148818_j704374637025_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the nine arguments as launched. -/
theorem run_named : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v51 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.GcnRun

end
-- ==== Proof.Payload.lean ====
/-
  What each kernel body stores, read at ONE entry of its block, at the ideal values.

  A block of the dense product: the body rounds both operands to a narrower format — the identity on the extended
  reals — and multiplies into a zero accumulator, so entry `(p, j)` is `∑ k, x (p, k) * w (k, j)`.
  A block of the bias stage: entry `(p, j)` is the block's entry plus entry `(0, j)` of the one-row bias, and in the
  first two layers the larger of that and `0`.
-/
import proofs.«148818_j704374637025_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.GcnValue

open Cert.KernelIdeal Cert.KernelIdeal.Gen Idealize.ShloMosaic Idealize.ShloMosaic.TcCoe Idealize.SL.Sem

/-! ## The dense products -/

/-- Entry `(p, k)` of the left block, for the output block's entry `j = (p, q)`. -/
abbrev blockRow (j : S10000x128.Idx) (k : Fin 128) : S10000x128.Idx := fun a => match a with
  | ⟨0, _⟩ => ⟨(j 0).val, (j 0).isLt⟩
  | ⟨1, _⟩ => ⟨k.val, k.isLt⟩
/-- Entry `(k, q)` of the weights, for the output block's entry `j = (p, q)`. -/
abbrev weightCol (j : S10000x128.Idx) (k : Fin 128) : S128x128.Idx := fun a => match a with
  | ⟨0, _⟩ => ⟨k.val, k.isLt⟩
  | ⟨1, _⟩ => ⟨(j 1).val, (j 1).isLt⟩
abbrev blockRow64 (j : S10000x64.Idx) (k : Fin 128) : S10000x128.Idx := fun a => match a with
  | ⟨0, _⟩ => ⟨(j 0).val, (j 0).isLt⟩
  | ⟨1, _⟩ => ⟨k.val, k.isLt⟩
abbrev weightCol64 (j : S10000x64.Idx) (k : Fin 128) : S128x64.Idx := fun a => match a with
  | ⟨0, _⟩ => ⟨k.val, k.isLt⟩
  | ⟨1, _⟩ => ⟨(j 1).val, (j 1).isLt⟩

theorem lhsW_0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsW_1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhsW_0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhsW_1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhsN_0 (j : S10000x64.Idx) (q : dot_S10000x128_S128x64_S10000x64_1_0_0_1_n_n.contr.Idx) : (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsN_1 (j : S10000x64.Idx) (q : dot_S10000x128_S128x64_S10000x64_1_0_0_1_n_n.contr.Idx) : (dot_S10000x128_S128x64_S10000x64_1_0_0_1_n_n.lhsIdx j q 1).val = (q ⟨0, by decide⟩).val :=
  dot_S10000x128_S128x64_S10000x64_1_0_0_1_n_n.lhsIdx_val_of_single rfl j q
theorem rhsN_0 (j : S10000x64.Idx) (q : dot_S10000x128_S128x64_S10000x64_1_0_0_1_n_n.contr.Idx) : (dot_S10000x128_S128x64_S10000x64_1_0_0_1_n_n.rhsIdx j q 0).val = (q ⟨0, by decide⟩).val :=
  dot_S10000x128_S128x64_S10000x64_1_0_0_1_n_n.rhsIdx_val_of_single rfl j q
theorem rhsN_1 (j : S10000x64.Idx) (q : dot_S10000x128_S128x64_S10000x64_1_0_0_1_n_n.contr.Idx) : (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The first layer's product block. -/
theorem product_first (x : FVec Ideal S10000x128 .f32) (w : FVec Ideal S128x128 .f32) (j : S10000x128.Idx) :
    k0_pay1 (F := Ideal) x w j = ∑ k : Fin 128, x (blockRow j k) * w (weightCol j k) := by
  unfold k0_pay1
  simp only [matmul]
  show FloatOps.matmul (F := Ideal) (φ₁ := .f32) (φ₂ := .f32) dot_S10000x128_S128x128_S10000x128_1_0_0_1_n_n none x w (constant S10000x128 .f32 0x00000000#32) j = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blockRow j k := funext fun a => Fin.ext (by
    match a with
    | ⟨0, _⟩ => exact lhsW_0 _ _
    | ⟨1, _⟩ => exact (lhsW_1 _ _).trans hk)
  have er : dot_S10000x128_S128x128_S10000x128_1_0_0_1_n_n.rhsIdx j ((ValueIdx.contrEquiv1 dot_S10000x128_S128x128_S10000x128_1_0_0_1_n_n 128 rfl rfl).symm k) = weightCol j k := funext fun a => Fin.ext (by
    match a with
    | ⟨0, _⟩ => exact (rhsW_0 _ _).trans hk
    | ⟨1, _⟩ => exact rhsW_1 _ _)
  rw [el, er]

/-- The second layer's product block (its left operand passes a same-shape cast first). -/
theorem product_second (x : FVec Ideal S10000x128 .f32) (w : FVec Ideal S128x128 .f32) (j : S10000x128.Idx) :
    k2_pay1 (F := Ideal) x w j = ∑ k : Fin 128, x (blockRow j k) * w (weightCol j k) := by
  unfold k2_pay1
  simp only [matmul]
  rw [shapeCast_self]
  show FloatOps.matmul (F := Ideal) (φ₁ := .f32) (φ₂ := .f32) dot_S10000x128_S128x128_S10000x128_1_0_0_1_n_n none x w (constant S10000x128 .f32 0x00000000#32) j = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blockRow j k := funext fun a => Fin.ext (by
    match a with
    | ⟨0, _⟩ => exact lhsW_0 _ _
    | ⟨1, _⟩ => exact (lhsW_1 _ _).trans hk)
  have er : dot_S10000x128_S128x128_S10000x128_1_0_0_1_n_n.rhsIdx j ((ValueIdx.contrEquiv1 dot_S10000x128_S128x128_S10000x128_1_0_0_1_n_n 128 rfl rfl).symm k) = weightCol j k := funext fun a => Fin.ext (by
    match a with
    | ⟨0, _⟩ => exact (rhsW_0 _ _).trans hk
    | ⟨1, _⟩ => exact rhsW_1 _ _)
  rw [el, er]

/-- The third layer's product block, `64` columns wide. -/
theorem product_third (x : FVec Ideal S10000x128 .f32) (w : FVec Ideal S128x64 .f32) (j : S10000x64.Idx) :
    k4_pay1 (F := Ideal) x w j = ∑ k : Fin 128, x (blockRow64 j k) * w (weightCol64 j k) := by
  unfold k4_pay1
  simp only [matmul]
  rw [shapeCast_self]
  show FloatOps.matmul (F := Ideal) (φ₁ := .f32) (φ₂ := .f32) dot_S10000x128_S128x64_S10000x64_1_0_0_1_n_n none x w (constant S10000x64 .f32 0x00000000#32) j = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blockRow64 j k := funext fun a => Fin.ext (by
    match a with
    | ⟨0, _⟩ => exact lhsN_0 _ _
    | ⟨1, _⟩ => exact (lhsN_1 _ _).trans hk)
  have er : dot_S10000x128_S128x64_S10000x64_1_0_0_1_n_n.rhsIdx j ((ValueIdx.contrEquiv1 dot_S10000x128_S128x64_S10000x64_1_0_0_1_n_n 128 rfl rfl).symm k) = weightCol64 j k := funext fun a => Fin.ext (by
    match a with
    | ⟨0, _⟩ => exact (rhsN_0 _ _).trans hk
    | ⟨1, _⟩ => exact rhsN_1 _ _)
  rw [el, er]

/-! ## The bias stages -/

/-- Entry `(0, q)` of the one-row bias, for the block's entry `j = (p, q)`. -/
abbrev biasAt (j : S10000x128.Idx) : S1x128.Idx := fun a => match a with
  | ⟨0, _⟩ => ⟨0, Nat.one_pos⟩
  | ⟨1, _⟩ => ⟨(j 1).val, (j 1).isLt⟩
abbrev biasAt64 (j : S10000x64.Idx) : S1x64.Idx := fun a => match a with
  | ⟨0, _⟩ => ⟨0, Nat.one_pos⟩
  | ⟨1, _⟩ => ⟨(j 1).val, (j 1).isLt⟩

theorem bias_row_apply (r : FVec Ideal S1x128 .f32) (j : S10000x128.Idx) :
    broadcastTo S10000x128 r broadcasts_S1x128_S10000x128 j = r (biasAt j) :=
  broadcastTo_apply r broadcasts_S1x128_S10000x128 j (biasAt j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

theorem bias_row_apply64 (r : FVec Ideal S1x64 .f32) (j : S10000x64.Idx) :
    broadcastTo S10000x64 r broadcasts_S1x64_S10000x64 j = r (biasAt64 j) :=
  broadcastTo_apply r broadcasts_S1x64_S10000x64 j (biasAt64 j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- The first layer's bias stage. -/
theorem bias_first (a : FVec Ideal S10000x128 .f32) (r : FVec Ideal S1x128 .f32) (j : S10000x128.Idx) :
    k1_pay1 (F := Ideal) a r j = FloatOps.maximumf (F := Ideal) (φ := .f32) (FloatOps.addf (a j) (r (biasAt j))) (FloatOps.ofBits .f32 0x00000000#32) := by
  unfold k1_pay1
  rw [shapeCast_self, shapeCast_self]
  show FloatOps.maximumf (F := Ideal) (φ := .f32) (FloatOps.addf (F := Ideal) (φ := .f32) (a j) (broadcastTo S10000x128 r broadcasts_S1x128_S10000x128 j)) _ = _
  rw [bias_row_apply]
  rfl

/-- The second layer's bias stage. -/
theorem bias_second (a : FVec Ideal S10000x128 .f32) (r : FVec Ideal S1x128 .f32) (j : S10000x128.Idx) :
    k3_pay1 (F := Ideal) a r j = FloatOps.maximumf (F := Ideal) (φ := .f32) (FloatOps.addf (a j) (r (biasAt j))) (FloatOps.ofBits .f32 0x00000000#32) := by
  unfold k3_pay1
  rw [shapeCast_self, shapeCast_self]
  show FloatOps.maximumf (F := Ideal) (φ := .f32) (FloatOps.addf (F := Ideal) (φ := .f32) (a j) (broadcastTo S10000x128 r broadcasts_S1x128_S10000x128 j)) _ = _
  rw [bias_row_apply]
  rfl

/-- The third layer's bias stage: no maximum. -/
theorem bias_third (a : FVec Ideal S10000x64 .f32) (r : FVec Ideal S1x64 .f32) (j : S10000x64.Idx) :
    k5_pay1 (F := Ideal) a r j = FloatOps.addf (F := Ideal) (φ := .f32) (a j) (r (biasAt64 j)) := by
  unfold k5_pay1
  rw [shapeCast_self, shapeCast_self]
  show FloatOps.addf (F := Ideal) (φ := .f32) (a j) (broadcastTo S10000x64 r broadcasts_S1x64_S10000x64 j) = _
  rw [bias_row_apply64]

end Cert.KernelIdeal.GcnValue

end
-- ==== Proof.LayerAt.lean ====
/-
  The layer functions read at ONE entry.

  Entry `(n, j)` of `x · W` is `∑ k, x (n, k) * W (k, j)`; entry `(n, j)` of an array plus a one-row bias is the
  array's entry plus the row's entry `(0, j)`; `max · 0` is taken entry by entry. A bias vector reshaped to one
  row and the same vector broadcast to one row are the same row.
-/
import proofs.«148818_j704374637025_1_alg».proof.Proof.Layer
import proofs.«148818_j704374637025_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Gcn

open Cert.ReferenceIdeal Cert.ReferenceIdeal.Gen Idealize.ShloMosaic Idealize.ShloMosaic.TcCoe Idealize.SL.Sem

variable {F : FTy → Type} [FloatOps F]

/-! ## The dense products -/

/-- Entry `(n, k)` of the left factor, for output entry `i = (n, j)`. -/
abbrev lrow128 (i : S100000x128.Idx) (k : Fin 128) : S100000x128.Idx := fun a => match a with
  | ⟨0, _⟩ => ⟨(i 0).val, (i 0).isLt⟩
  | ⟨1, _⟩ => ⟨k.val, k.isLt⟩
/-- Entry `(k, j)` of the right factor, for output entry `i = (n, j)`. -/
abbrev rcol128 (i : S100000x128.Idx) (k : Fin 128) : S128x128.Idx := fun a => match a with
  | ⟨0, _⟩ => ⟨k.val, k.isLt⟩
  | ⟨1, _⟩ => ⟨(i 1).val, (i 1).isLt⟩

theorem lin128_apply (x : (⟨S100000x128, .f32⟩ : BufTy).Contents (Elt Ideal)) (W : (⟨S128x128, .f32⟩ : BufTy).Contents (Elt Ideal))
    (i : S100000x128.Idx) : lin128 (F := Ideal) x W i = ∑ k : Fin 128, x (lrow128 i k) * W (rcol128 i k) :=
  Cert.ReferenceIdeal.Read.val_main_v4_apply x W i

abbrev lrow64 (i : S100000x64.Idx) (k : Fin 128) : S100000x128.Idx := fun a => match a with
  | ⟨0, _⟩ => ⟨(i 0).val, (i 0).isLt⟩
  | ⟨1, _⟩ => ⟨k.val, k.isLt⟩
abbrev rcol64 (i : S100000x64.Idx) (k : Fin 128) : S128x64.Idx := fun a => match a with
  | ⟨0, _⟩ => ⟨k.val, k.isLt⟩
  | ⟨1, _⟩ => ⟨(i 1).val, (i 1).isLt⟩

theorem lin64_apply (x : (⟨S100000x128, .f32⟩ : BufTy).Contents (Elt Ideal)) (W : (⟨S128x64, .f32⟩ : BufTy).Contents (Elt Ideal))
    (i : S100000x64.Idx) : lin64 (F := Ideal) x W i = ∑ k : Fin 128, x (lrow64 i k) * W (rcol64 i k) := by
  unfold lin64
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lrow64 i k := funext fun a => Fin.ext (by
    match a with
    | ⟨0, _⟩ => exact Cert.ReferenceIdeal.Read.lhs_main_v40_0 _ _
    | ⟨1, _⟩ => exact (Cert.ReferenceIdeal.Read.lhs_main_v40_1 _ _).trans hk)
  have er : dot_S100000x128_S128x64_S100000x64_1_0_0_1_n_n.rhsIdx i ((ValueIdx.contrEquiv1 dot_S100000x128_S128x64_S100000x64_1_0_0_1_n_n 128 rfl rfl).symm k) = rcol64 i k := funext fun a => Fin.ext (by
    match a with
    | ⟨0, _⟩ => exact (Cert.ReferenceIdeal.Read.rhs_main_v40_0 _ _).trans hk
    | ⟨1, _⟩ => exact Cert.ReferenceIdeal.Read.rhs_main_v40_1 _ _)
  rw [el, er]

/-! ## The bias rows -/

/-- Entry `(0, j)` of a one-row array, for the entry `i = (n, j)` of the full array. -/
abbrev rowOf128 (i : S100000x128.Idx) : S1x128.Idx := fun a => match a with
  | ⟨0, _⟩ => ⟨0, Nat.one_pos⟩
  | ⟨1, _⟩ => ⟨(i 1).val, (i 1).isLt⟩
abbrev rowOf64 (i : S100000x64.Idx) : S1x64.Idx := fun a => match a with
  | ⟨0, _⟩ => ⟨0, Nat.one_pos⟩
  | ⟨1, _⟩ => ⟨(i 1).val, (i 1).isLt⟩

theorem addRow128_apply (a : (⟨S100000x128, .f32⟩ : BufTy).Contents (Elt F)) (r : (⟨S1x128, .f32⟩ : BufTy).Contents (Elt F))
    (i : S100000x128.Idx) : addRow128 a r i = FloatOps.addf (a i) (r (rowOf128 i)) := by
  unfold addRow128
  show FloatOps.addf (a i) (broadcastInDim S100000x128 ![0, 1] bcast_S1x128_S100000x128_0_1 r i) = _
  rw [broadcastInDim_apply _ bcast_S1x128_S100000x128_0_1 r i (rowOf128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]

theorem addRow64_apply (a : (⟨S100000x64, .f32⟩ : BufTy).Contents (Elt F)) (r : (⟨S1x64, .f32⟩ : BufTy).Contents (Elt F))
    (i : S100000x64.Idx) : addRow64 a r i = FloatOps.addf (a i) (r (rowOf64 i)) := by
  unfold addRow64
  show FloatOps.addf (a i) (broadcastInDim S100000x64 ![0, 1] bcast_S1x64_S100000x64_0_1 r i) = _
  rw [broadcastInDim_apply _ bcast_S1x64_S100000x64_0_1 r i (rowOf64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]

theorem relu128_apply (a : (⟨S100000x128, .f32⟩ : BufTy).Contents (Elt F)) (i : S100000x128.Idx) :
    relu128 a i = FloatOps.maximumf (a i) (FloatOps.ofBits .f32 0x00000000#32) := by
  unfold relu128
  show FloatOps.maximumf (a i) (broadcastInDim S100000x128 ![] bcast_S_S100000x128 (constant S_ .f32 0x00000000#32) i) = _
  rw [broadcastInDim_apply _ bcast_S_S100000x128 (constant (F := F) S_ .f32 0x00000000#32) i (fun a => a.elim0) (fun a => a.elim0)]
  rfl

/-- A vector reshaped to one row is the vector broadcast to one row: entry `(0, j)` of either is entry `j`. -/
theorem reshape_row128 (b : (⟨S128, .f32⟩ : BufTy).Contents (Elt F)) (h : S128.ShapeCasts S1x128) :
    shapeCast S1x128 b h = row128 b := by
  funext i
  unfold row128
  rw [broadcastInDim_apply _ bcast_S128_S1x128_1 b i (fun a => match a with | ⟨0, _⟩ => ⟨(i 1).val, (i 1).isLt⟩) (fun a => match a with
    | ⟨0, _⟩ => by show (i 1).val = if (128 : Nat) = 1 then 0 else (i 1).val; rw [if_neg (by decide)])]
  refine shapeCast_apply b h i _ ?_
  rw [Shape.rowMajor_val_one, Shape.rowMajor_val_two]
  have h0 : (i 0).val < 1 := (i 0).isLt
  show (i 1).val = (i 0).val * 128 + (i 1).val
  omega

theorem reshape_row64 (b : (⟨S64, .f32⟩ : BufTy).Contents (Elt F)) (h : S64.ShapeCasts S1x64) :
    shapeCast S1x64 b h = row64 b := by
  funext i
  unfold row64
  rw [broadcastInDim_apply _ bcast_S64_S1x64_1 b i (fun a => match a with | ⟨0, _⟩ => ⟨(i 1).val, (i 1).isLt⟩) (fun a => match a with
    | ⟨0, _⟩ => by show (i 1).val = if (64 : Nat) = 1 then 0 else (i 1).val; rw [if_neg (by decide)])]
  refine shapeCast_apply b h i _ ?_
  rw [Shape.rowMajor_val_one, Shape.rowMajor_val_two]
  have h0 : (i 0).val < 1 := (i 0).isLt
  show (i 1).val = (i 0).val * 64 + (i 1).val
  omega

end Cert.Gcn

end
-- ==== Proof.Product1.lean ====
/-
  The first layer's dense product, from blocks to the array: each grid point multiplies a block of ten thousand rows by the
  whole weight matrix and writes the block back; the ten blocks tile the output, so the output array ends at `x · W`.
-/
import proofs.«148818_j704374637025_1_alg».proof.Proof.Gen.KernelIdeal.Frame
import proofs.«148818_j704374637025_1_alg».proof.Proof.Payload
import proofs.«148818_j704374637025_1_alg».proof.Proof.LayerAt
import Idealize.ShloMosaic.Lib.Pipeline.Value

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The first layer's product: rows `10000 t … 10000 t + 9999` at grid point `t`, the weights whole at every point -/

theorem zeroOffsets0 : (![0, 0] : Fin 2 → Nat) = fun _ => 0 := funext fun a => by fin_cases a <;> rfl

/-- The printed index maps, decided over the ten points: the input block moves with the output block down the rows,
    and nothing moves along the columns or over the weights. -/
theorem maps0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every one of the ten row blocks is some point's. -/
theorem onto0 : ∀ q : Fin 10, ∃ t : Fin cfg0.N, win0_2.index t = ![q.val, 0] :=
  (by decide +kernel : ∀ q : Fin 10, ∃ t : Fin grid0.N, win0_2.index t = ![q.val, 0])

/-- What point `t` writes back is block `t` of the product of the two arrays as the region finds them: entry `(p, q)` of
    the block is `∑ k, x (10000 t + p, k) * W (k, q)`, which is entry `(10000 t + p, q)` of `x · W`. -/
theorem written0 (c : Dev nD) (t : Fin cfg0.N) :
    (dat0 (F := Ideal) V c).flushed 2 t = ((cfg0.win 2).blk t).view.read (Elt Ideal) (Gcn.lin128 (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S10000x128) zeroOffsets0, View.ld_unit_zero (S := S128x128) zeroOffsets0]
  obtain ⟨e0, e1, e2, e3, e4⟩ := maps0 t
  funext j
  show k0_pay1 (iblk0 V c 0 t) (iblk0 V c 1 t) j = Gcn.lin128 (V c main_arg0) (V c main_arg3) (((cfg0.win 2).blk t).view.emb j)
  refine (product_first (iblk0 V c 0 t) (iblk0 V c 1 t) j).trans ?_
  rw [Gcn.lin128_apply]
  refine Finset.sum_congr rfl fun k _ => ?_
  have h0 : ((cfg0.win 0).blk t).view.emb (blockRow j k) = Gcn.lrow128 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (weightCol j k) = Gcn.rcol128 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have e0 : iblk0 V c 0 t (blockRow j k) = V c main_arg0 (((cfg0.win 0).blk t).view.emb (blockRow j k)) := rfl
  have e1 : iblk0 V c 1 t (weightCol j k) = V c main_arg3 (((cfg0.win 1).blk t).view.emb (weightCol j k)) := rfl
  rw [e0, e1, h0, h1]

/-- An entry of the output array is in point `t`'s block iff each coordinate is in the block's range on its axis. -/
theorem inBlock0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Row `n` is in the block of the point whose block index is `n / 10000`: the ten blocks cover the array. -/
theorem covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [inBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- So the region leaves its output array at the product of its two input arrays, whatever they hold on entry. -/
theorem product0 (c : Dev nD) :
    (dat0 (F := Ideal) V c).arrAt 2 cfg0.N = Gcn.lin128 (V c main_arg0) (V c main_arg3) :=
  (dat0 V c).arrAt_eq_of_cover 2 _ (fun t _ => written0 V c t) covered0

end Cert.KernelIdeal.GcnValue

end
-- ==== Proof.Product2.lean ====
/-
  The second layer's dense product, from blocks to the array: each grid point multiplies a block of ten thousand rows of the
  first layer's output by the whole weight matrix and writes the block back; the ten blocks tile the output.
-/
import proofs.«148818_j704374637025_1_alg».proof.Proof.Gen.KernelIdeal.Frame
import proofs.«148818_j704374637025_1_alg».proof.Proof.Payload
import proofs.«148818_j704374637025_1_alg».proof.Proof.LayerAt
import Idealize.ShloMosaic.Lib.Pipeline.Value

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The second layer's product: rows `10000 t … 10000 t + 9999` at grid point `t`, the weights whole at every point -/

theorem zeroOffsets2 : (![0, 0] : Fin 2 → Nat) = fun _ => 0 := funext fun a => by fin_cases a <;> rfl

/-- The printed index maps, decided over the ten points: the input block moves with the output block down the rows,
    and nothing moves along the columns or over the weights. -/
theorem maps2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Every one of the ten row blocks is some point's. -/
theorem onto2 : ∀ q : Fin 10, ∃ t : Fin cfg2.N, win2_2.index t = ![q.val, 0] :=
  (by decide +kernel : ∀ q : Fin 10, ∃ t : Fin grid2.N, win2_2.index t = ![q.val, 0])

/-- What point `t` writes back is block `t` of the product of the two arrays as the region finds them: entry `(p, q)` of
    the block is `∑ k, x (10000 t + p, k) * W (k, q)`, which is entry `(10000 t + p, q)` of `x · W`. -/
theorem written2 (c : Dev nD) (t : Fin cfg2.N) :
    (dat2 (F := Ideal) V c).flushed 2 t = ((cfg2.win 2).blk t).view.read (Elt Ideal) (Gcn.lin128 (V c main_v19) (V c main_arg5)) := by
  show (cfg2.win 2).cut (grid2.coords t) ((dat2 V c).after 2 t) = _
  rw [after2_2]
  unfold out2_2
  rw [View.canon_unit_zero zeroOffsets2]
  simp only [View.ld_unit_zero (S := S10000x128) zeroOffsets2, View.ld_unit_zero (S := S128x128) zeroOffsets2]
  obtain ⟨e0, e1, e2, e3, e4⟩ := maps2 t
  funext j
  show k2_pay1 (iblk2 V c 0 t) (iblk2 V c 1 t) j = Gcn.lin128 (V c main_v19) (V c main_arg5) (((cfg2.win 2).blk t).view.emb j)
  refine (product_second (iblk2 V c 0 t) (iblk2 V c 1 t) j).trans ?_
  rw [Gcn.lin128_apply]
  refine Finset.sum_congr rfl fun k _ => ?_
  have h0 : ((cfg2.win 0).blk t).view.emb (blockRow j k) = Gcn.lrow128 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (weightCol j k) = Gcn.rcol128 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have e0 : iblk2 V c 0 t (blockRow j k) = V c main_v19 (((cfg2.win 0).blk t).view.emb (blockRow j k)) := rfl
  have e1 : iblk2 V c 1 t (weightCol j k) = V c main_arg5 (((cfg2.win 1).blk t).view.emb (weightCol j k)) := rfl
  rw [e0, e1, h0, h1]

/-- An entry of the output array is in point `t`'s block iff each coordinate is in the block's range on its axis. -/
theorem inBlock2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v20).slice (win2_2.rect t)).set ↔ _
  rw [View.set_slice_whole, Rect.mem_set_unit]
  exact Iff.rfl

/-- Row `n` is in the block of the point whose block index is `n / 10000`: the ten blocks cover the array. -/
theorem covered2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [inBlock2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- So the region leaves its output array at the product of its two input arrays, whatever they hold on entry. -/
theorem product2 (c : Dev nD) :
    (dat2 (F := Ideal) V c).arrAt 2 cfg2.N = Gcn.lin128 (V c main_v19) (V c main_arg5) :=
  (dat2 V c).arrAt_eq_of_cover 2 _ (fun t _ => written2 V c t) covered2

end Cert.KernelIdeal.GcnValue

end
-- ==== Proof.Product3.lean ====
/-
  The third layer's dense product, from blocks to the array: each grid point multiplies a block of ten thousand rows of the
  second layer's output by the whole `128 × 64` weight matrix and writes the block back; the ten blocks tile the output.
-/
import proofs.«148818_j704374637025_1_alg».proof.Proof.Gen.KernelIdeal.Frame
import proofs.«148818_j704374637025_1_alg».proof.Proof.Payload
import proofs.«148818_j704374637025_1_alg».proof.Proof.LayerAt
import Idealize.ShloMosaic.Lib.Pipeline.Value

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The third layer's product: rows `10000 t … 10000 t + 9999` at grid point `t`, the weights whole at every point -/

theorem zeroOffsets4 : (![0, 0] : Fin 2 → Nat) = fun _ => 0 := funext fun a => by fin_cases a <;> rfl

/-- The printed index maps, decided over the ten points: the input block moves with the output block down the rows,
    and nothing moves along the columns or over the weights. -/
theorem maps4 : ∀ t : Fin cfg4.N, win4_0.index t (0 : Fin 2) = win4_2.index t (0 : Fin 2) ∧ win4_0.index t (1 : Fin 2) = 0
    ∧ win4_1.index t (0 : Fin 2) = 0 ∧ win4_1.index t (1 : Fin 2) = 0 ∧ win4_2.index t (1 : Fin 2) = 0 :=
  (by decide +kernel : ∀ t : Fin grid4.N, _)

/-- Every one of the ten row blocks is some point's. -/
theorem onto4 : ∀ q : Fin 10, ∃ t : Fin cfg4.N, win4_2.index t = ![q.val, 0] :=
  (by decide +kernel : ∀ q : Fin 10, ∃ t : Fin grid4.N, win4_2.index t = ![q.val, 0])

/-- What point `t` writes back is block `t` of the product of the two arrays as the region finds them: entry `(p, q)` of
    the block is `∑ k, x (10000 t + p, k) * W (k, q)`, which is entry `(10000 t + p, q)` of `x · W`. -/
theorem written4 (c : Dev nD) (t : Fin cfg4.N) :
    (dat4 (F := Ideal) V c).flushed 2 t = ((cfg4.win 2).blk t).view.read (Elt Ideal) (Gcn.lin64 (V c main_v35) (V c main_arg7)) := by
  show (cfg4.win 2).cut (grid4.coords t) ((dat4 V c).after 2 t) = _
  rw [after4_2]
  unfold out4_2
  rw [View.canon_unit_zero zeroOffsets4]
  simp only [View.ld_unit_zero (S := S10000x128) zeroOffsets4, View.ld_unit_zero (S := S128x64) zeroOffsets4]
  obtain ⟨e0, e1, e2, e3, e4⟩ := maps4 t
  funext j
  show k4_pay1 (iblk4 V c 0 t) (iblk4 V c 1 t) j = Gcn.lin64 (V c main_v35) (V c main_arg7) (((cfg4.win 2).blk t).view.emb j)
  refine (product_third (iblk4 V c 0 t) (iblk4 V c 1 t) j).trans ?_
  rw [Gcn.lin64_apply]
  refine Finset.sum_congr rfl fun k _ => ?_
  have h0 : ((cfg4.win 0).blk t).view.emb (blockRow64 j k) = Gcn.lrow64 (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * k.val = k.val; omega
  have h1 : ((cfg4.win 1).blk t).view.emb (weightCol64 j k) = Gcn.rcol64 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  have e0 : iblk4 V c 0 t (blockRow64 j k) = V c main_v35 (((cfg4.win 0).blk t).view.emb (blockRow64 j k)) := rfl
  have e1 : iblk4 V c 1 t (weightCol64 j k) = V c main_arg7 (((cfg4.win 1).blk t).view.emb (weightCol64 j k)) := rfl
  rw [e0, e1, h0, h1]

/-- An entry of the output array is in point `t`'s block iff each coordinate is in the block's range on its axis. -/
theorem inBlock4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v36).slice (win4_2.rect t)).set ↔ _
  rw [View.set_slice_whole, Rect.mem_set_unit]
  exact Iff.rfl

/-- Row `n` is in the block of the point whose block index is `n / 10000`: the ten blocks cover the array. -/
theorem covered4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [inBlock4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- So the region leaves its output array at the product of its two input arrays, whatever they hold on entry. -/
theorem product4 (c : Dev nD) :
    (dat4 (F := Ideal) V c).arrAt 2 cfg4.N = Gcn.lin64 (V c main_v35) (V c main_arg7) :=
  (dat4 V c).arrAt_eq_of_cover 2 _ (fun t _ => written4 V c t) covered4

end Cert.KernelIdeal.GcnValue

end
-- ==== Proof.Bias1.lean ====
/-
  The first layer's bias stage, from blocks to the array: each grid point adds the one-row bias to a block of ten thousand
  rows, clamps at zero and writes the block back; the ten blocks tile the output.
-/
import proofs.«148818_j704374637025_1_alg».proof.Proof.Gen.KernelIdeal.Frame
import proofs.«148818_j704374637025_1_alg».proof.Proof.Payload
import proofs.«148818_j704374637025_1_alg».proof.Proof.LayerAt
import Idealize.ShloMosaic.Lib.Pipeline.Value

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The first layer's bias stage: rows `10000 t … 10000 t + 9999` at grid point `t`, the one-row bias whole at every point -/

theorem zeroOffsets1 : (![0, 0] : Fin 2 → Nat) = fun _ => 0 := funext fun a => by fin_cases a <;> rfl

/-- The printed index maps, decided over the ten points: the input block moves with the output block down the rows,
    and nothing moves along the columns or over the bias row. -/
theorem maps1 : ∀ t : Fin cfg1.N, win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0 ∧ win1_2.index t (1 : Fin 2) = 0 :=
  (by decide +kernel : ∀ t : Fin grid1.N, _)

/-- Every one of the ten row blocks is some point's. -/
theorem onto1 : ∀ q : Fin 10, ∃ t : Fin cfg1.N, win1_2.index t = ![q.val, 0] :=
  (by decide +kernel : ∀ q : Fin 10, ∃ t : Fin grid1.N, win1_2.index t = ![q.val, 0])

/-- What point `t` writes back is block `t` of the biased, clamped array: entry `(p, q)` of the block is the input's entry
    `(10000 t + p, q)` plus the row's entry `(0, q)`, or `0` if that is larger. -/
theorem written1 (c : Dev nD) (t : Fin cfg1.N) :
    (dat1 (F := Ideal) V c).flushed 2 t = ((cfg1.win 2).blk t).view.read (Elt Ideal) (Gcn.relu128 (Gcn.addRow128 (V c main_v17) (V c main_v18))) := by
  show (cfg1.win 2).cut (grid1.coords t) ((dat1 V c).after 2 t) = _
  rw [after1_2]
  unfold out1_2
  rw [View.canon_unit_zero zeroOffsets1]
  simp only [View.ld_unit_zero (S := S10000x128) zeroOffsets1, View.ld_unit_zero (S := S1x128) zeroOffsets1]
  obtain ⟨e0, e1, e2, e3, e4⟩ := maps1 t
  funext j
  show k1_pay1 (iblk1 V c 0 t) (iblk1 V c 1 t) j = (Gcn.relu128 (Gcn.addRow128 (V c main_v17) (V c main_v18))) (((cfg1.win 2).blk t).view.emb j)
  refine (bias_first (iblk1 V c 0 t) (iblk1 V c 1 t) j).trans ?_
  rw [Gcn.relu128_apply, Gcn.addRow128_apply]
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasAt j) = Gcn.rowOf128 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  show FloatOps.maximumf (F := Ideal) (φ := .f32) (FloatOps.addf (F := Ideal) (φ := .f32) (V c main_v17 (((cfg1.win 0).blk t).view.emb j)) (V c main_v18 (((cfg1.win 1).blk t).view.emb (biasAt j)))) _ = _
  rw [h0, h1]

/-- An entry of the output array is in point `t`'s block iff each coordinate is in the block's range on its axis. -/
theorem inBlock1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v19).slice (win1_2.rect t)).set ↔ _
  rw [View.set_slice_whole, Rect.mem_set_unit]
  exact Iff.rfl

/-- Row `n` is in the block of the point whose block index is `n / 10000`: the ten blocks cover the array. -/
theorem covered1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [inBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- So the region leaves its output array at the biased, clamped input array, whatever the two hold on entry. -/
theorem biased1 (c : Dev nD) :
    (dat1 (F := Ideal) V c).arrAt 2 cfg1.N = Gcn.relu128 (Gcn.addRow128 (V c main_v17) (V c main_v18)) :=
  (dat1 V c).arrAt_eq_of_cover 2 _ (fun t _ => written1 V c t) covered1

end Cert.KernelIdeal.GcnValue

end
-- ==== Proof.Bias2.lean ====
/-
  The second layer's bias stage, from blocks to the array: each grid point adds the one-row bias to a block of ten thousand
  rows, clamps at zero and writes the block back; the ten blocks tile the output.
-/
import proofs.«148818_j704374637025_1_alg».proof.Proof.Gen.KernelIdeal.Frame
import proofs.«148818_j704374637025_1_alg».proof.Proof.Payload
import proofs.«148818_j704374637025_1_alg».proof.Proof.LayerAt
import Idealize.ShloMosaic.Lib.Pipeline.Value

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The second layer's bias stage: rows `10000 t … 10000 t + 9999` at grid point `t`, the one-row bias whole at every point -/

theorem zeroOffsets3 : (![0, 0] : Fin 2 → Nat) = fun _ => 0 := funext fun a => by fin_cases a <;> rfl

/-- The printed index maps, decided over the ten points: the input block moves with the output block down the rows,
    and nothing moves along the columns or over the bias row. -/
theorem maps3 : ∀ t : Fin cfg3.N, win3_0.index t (0 : Fin 2) = win3_2.index t (0 : Fin 2) ∧ win3_0.index t (1 : Fin 2) = win3_2.index t (1 : Fin 2)
    ∧ win3_1.index t (0 : Fin 2) = 0 ∧ win3_1.index t (1 : Fin 2) = 0 ∧ win3_2.index t (1 : Fin 2) = 0 :=
  (by decide +kernel : ∀ t : Fin grid3.N, _)

/-- Every one of the ten row blocks is some point's. -/
theorem onto3 : ∀ q : Fin 10, ∃ t : Fin cfg3.N, win3_2.index t = ![q.val, 0] :=
  (by decide +kernel : ∀ q : Fin 10, ∃ t : Fin grid3.N, win3_2.index t = ![q.val, 0])

/-- What point `t` writes back is block `t` of the biased, clamped array: entry `(p, q)` of the block is the input's entry
    `(10000 t + p, q)` plus the row's entry `(0, q)`, or `0` if that is larger. -/
theorem written3 (c : Dev nD) (t : Fin cfg3.N) :
    (dat3 (F := Ideal) V c).flushed 2 t = ((cfg3.win 2).blk t).view.read (Elt Ideal) (Gcn.relu128 (Gcn.addRow128 (V c main_v33) (V c main_v34))) := by
  show (cfg3.win 2).cut (grid3.coords t) ((dat3 V c).after 2 t) = _
  rw [after3_2]
  unfold out3_2
  rw [View.canon_unit_zero zeroOffsets3]
  simp only [View.ld_unit_zero (S := S10000x128) zeroOffsets3, View.ld_unit_zero (S := S1x128) zeroOffsets3]
  obtain ⟨e0, e1, e2, e3, e4⟩ := maps3 t
  funext j
  show k3_pay1 (iblk3 V c 0 t) (iblk3 V c 1 t) j = (Gcn.relu128 (Gcn.addRow128 (V c main_v33) (V c main_v34))) (((cfg3.win 2).blk t).view.emb j)
  refine (bias_second (iblk3 V c 0 t) (iblk3 V c 1 t) j).trans ?_
  rw [Gcn.relu128_apply, Gcn.addRow128_apply]
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (biasAt j) = Gcn.rowOf128 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  show FloatOps.maximumf (F := Ideal) (φ := .f32) (FloatOps.addf (F := Ideal) (φ := .f32) (V c main_v33 (((cfg3.win 0).blk t).view.emb j)) (V c main_v34 (((cfg3.win 1).blk t).view.emb (biasAt j)))) _ = _
  rw [h0, h1]

/-- An entry of the output array is in point `t`'s block iff each coordinate is in the block's range on its axis. -/
theorem inBlock3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v35).slice (win3_2.rect t)).set ↔ _
  rw [View.set_slice_whole, Rect.mem_set_unit]
  exact Iff.rfl

/-- Row `n` is in the block of the point whose block index is `n / 10000`: the ten blocks cover the array. -/
theorem covered3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [inBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- So the region leaves its output array at the biased, clamped input array, whatever the two hold on entry. -/
theorem biased3 (c : Dev nD) :
    (dat3 (F := Ideal) V c).arrAt 2 cfg3.N = Gcn.relu128 (Gcn.addRow128 (V c main_v33) (V c main_v34)) :=
  (dat3 V c).arrAt_eq_of_cover 2 _ (fun t _ => written3 V c t) covered3

end Cert.KernelIdeal.GcnValue

end
-- ==== Proof.Bias3.lean ====
/-
  The third layer's bias stage, from blocks to the array: each grid point adds the one-row bias to a block of ten thousand
  rows of `64` columns and writes the block back, with no clamp; the ten blocks tile the output, which is the result.
-/
import proofs.«148818_j704374637025_1_alg».proof.Proof.Gen.KernelIdeal.Frame
import proofs.«148818_j704374637025_1_alg».proof.Proof.Payload
import proofs.«148818_j704374637025_1_alg».proof.Proof.LayerAt
import Idealize.ShloMosaic.Lib.Pipeline.Value

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The third layer's bias stage: rows `10000 t … 10000 t + 9999` at grid point `t`, the one-row bias whole at every point -/

theorem zeroOffsets5 : (![0, 0] : Fin 2 → Nat) = fun _ => 0 := funext fun a => by fin_cases a <;> rfl

/-- The printed index maps, decided over the ten points: the input block moves with the output block down the rows,
    and nothing moves along the columns or over the bias row. -/
theorem maps5 : ∀ t : Fin cfg5.N, win5_0.index t (0 : Fin 2) = win5_2.index t (0 : Fin 2) ∧ win5_0.index t (1 : Fin 2) = win5_2.index t (1 : Fin 2)
    ∧ win5_1.index t (0 : Fin 2) = 0 ∧ win5_1.index t (1 : Fin 2) = 0 ∧ win5_2.index t (1 : Fin 2) = 0 :=
  (by decide +kernel : ∀ t : Fin grid5.N, _)

/-- Every one of the ten row blocks is some point's. -/
theorem onto5 : ∀ q : Fin 10, ∃ t : Fin cfg5.N, win5_2.index t = ![q.val, 0] :=
  (by decide +kernel : ∀ q : Fin 10, ∃ t : Fin grid5.N, win5_2.index t = ![q.val, 0])

/-- What point `t` writes back is block `t` of the biased array: entry `(p, q)` of the block is the input's entry
    `(10000 t + p, q)` plus the row's entry `(0, q)`. -/
theorem written5 (c : Dev nD) (t : Fin cfg5.N) :
    (dat5 (F := Ideal) V c).flushed 2 t = ((cfg5.win 2).blk t).view.read (Elt Ideal) (Gcn.addRow64 (V c main_v49) (V c main_v50)) := by
  show (cfg5.win 2).cut (grid5.coords t) ((dat5 V c).after 2 t) = _
  rw [after5_2]
  unfold out5_2
  rw [View.canon_unit_zero zeroOffsets5]
  simp only [View.ld_unit_zero (S := S10000x64) zeroOffsets5, View.ld_unit_zero (S := S1x64) zeroOffsets5]
  obtain ⟨e0, e1, e2, e3, e4⟩ := maps5 t
  funext j
  show k5_pay1 (iblk5 V c 0 t) (iblk5 V c 1 t) j = (Gcn.addRow64 (V c main_v49) (V c main_v50)) (((cfg5.win 2).blk t).view.emb j)
  refine (bias_third (iblk5 V c 0 t) (iblk5 V c 1 t) j).trans ?_
  rw [Gcn.addRow64_apply]
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (biasAt64 j) = Gcn.rowOf64 (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  show FloatOps.addf (F := Ideal) (φ := .f32) (V c main_v49 (((cfg5.win 0).blk t).view.emb j)) (V c main_v50 (((cfg5.win 1).blk t).view.emb (biasAt64 j))) = _
  rw [h0, h1]

/-- An entry of the output array is in point `t`'s block iff each coordinate is in the block's range on its axis. -/
theorem inBlock5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v51).slice (win5_2.rect t)).set ↔ _
  rw [View.set_slice_whole, Rect.mem_set_unit]
  exact Iff.rfl

/-- Row `n` is in the block of the point whose block index is `n / 10000`: the ten blocks cover the array. -/
theorem covered5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [inBlock5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- So the region leaves its output array at the biased input array, whatever the two hold on entry. -/
theorem biased5 (c : Dev nD) :
    (dat5 (F := Ideal) V c).arrAt 2 cfg5.N = Gcn.addRow64 (V c main_v49) (V c main_v50) :=
  (dat5 V c).arrAt_eq_of_cover 2 _ (fun t _ => written5 V c t) covered5

end Cert.KernelIdeal.GcnValue

end
-- ==== Proof.Glue.lean ====
/-
  The host operations between the grid regions, read back.

  The stretch before the first region slices the two rows out of the edge list. Each stretch after a dense product forms the
  weighted adjacency product of that region's output — gather the source rows, scale by the edge weights, add into the
  destination rows — and reshapes the layer's bias vector to one row. The kernel's and the reference's host operations are
  the same operations with the same parameters, so each buffer a later region reads holds the layer function of the buffers
  the stretch read, by unfolding.
-/
import proofs.«148818_j704374637025_1_alg».proof.Proof.Gen.KernelIdeal.Launch
import proofs.«148818_j704374637025_1_alg».proof.Proof.Layer
import Idealize.ShloMosaic.Lib.StableHlo.Run

set_option maxRecDepth 16384

noncomputable section

namespace Cert.KernelIdeal.GcnValue

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-- After the first stretch the source row of the edge list is in its buffer. -/
theorem sources_after (W : Valuation τ sig (Elt F)) :
    after hostOps0 W (Proc.devRef .tc main_v1) = Gcn.edgeSrc (W (Proc.devRef .tc main_arg1)) := by
  after_results
  rfl

/-- After the first stretch the destination row of the edge list is in its buffer. -/
theorem destinations_after (W : Valuation τ sig (Elt F)) :
    after hostOps0 W (Proc.devRef .tc main_v3) = Gcn.edgeDst (W (Proc.devRef .tc main_arg1)) := by
  after_results
  rfl

set_option maxHeartbeats 2000000 in
/-- The first layer's adjacency product, of the first product region's output. -/
theorem aggregate_first (W : Valuation τ sig (Elt F)) :
    after hostOps1 W (Proc.devRef .tc main_v17)
      = Gcn.agg128 (W (Proc.devRef .tc main_v4)) (W (Proc.devRef .tc main_v1)) (W (Proc.devRef .tc main_v3)) (W (Proc.devRef .tc main_arg2)) := by
  after_results_simp
  rfl

/-- The first layer's bias as one row. -/
theorem bias_row_first (W : Valuation τ sig (Elt F)) :
    after hostOps1 W (Proc.devRef .tc main_v18) = shapeCast _ (W (Proc.devRef .tc main_arg4)) shapeCasts_S128_S1x128 := by
  after_results
  rfl

set_option maxHeartbeats 2000000 in
/-- The second layer's adjacency product, of the second product region's output. -/
theorem aggregate_second (W : Valuation τ sig (Elt F)) :
    after hostOps3 W (Proc.devRef .tc main_v33)
      = Gcn.agg128 (W (Proc.devRef .tc main_v20)) (W (Proc.devRef .tc main_v1)) (W (Proc.devRef .tc main_v3)) (W (Proc.devRef .tc main_arg2)) := by
  after_results_simp
  rfl

/-- The second layer's bias as one row. -/
theorem bias_row_second (W : Valuation τ sig (Elt F)) :
    after hostOps3 W (Proc.devRef .tc main_v34) = shapeCast _ (W (Proc.devRef .tc main_arg6)) shapeCasts_S128_S1x128 := by
  after_results
  rfl

set_option maxHeartbeats 2000000 in
/-- The third layer's adjacency product, of the third product region's output. -/
theorem aggregate_third (W : Valuation τ sig (Elt F)) :
    after hostOps5 W (Proc.devRef .tc main_v49)
      = Gcn.agg64 (W (Proc.devRef .tc main_v36)) (W (Proc.devRef .tc main_v1)) (W (Proc.devRef .tc main_v3)) (W (Proc.devRef .tc main_arg2)) := by
  after_results_simp
  rfl

/-- The third layer's bias as one row. -/
theorem bias_row_third (W : Valuation τ sig (Elt F)) :
    after hostOps5 W (Proc.devRef .tc main_v50) = shapeCast _ (W (Proc.devRef .tc main_arg8)) shapeCasts_S64_S1x64 := by
  after_results
  rfl

end Cert.KernelIdeal.GcnValue

end
-- ==== Proof.Chain.lean ====
/-
  The kernel's result as a function of its arguments.

  The buffer contents at the ten segment boundaries are followed from the launch to the return. The two rows of the edge
  list are cut out once, before the first region, and no later segment writes them or an argument, so every later segment
  finds them as they were. Each product region leaves `x · W` of what it finds, each stretch of host operations the weighted
  adjacency product of that and the bias as one row, each bias region their sum (clamped at zero in the first two layers).
  Composed, the result buffer ends at the three-layer network of the arguments.
-/
import proofs.«148818_j704374637025_1_alg».proof.Proof.Gen.KernelIdeal.Frame
import proofs.«148818_j704374637025_1_alg».proof.Proof.Product1
import proofs.«148818_j704374637025_1_alg».proof.Proof.Product2
import proofs.«148818_j704374637025_1_alg».proof.Proof.Product3
import proofs.«148818_j704374637025_1_alg».proof.Proof.Bias1
import proofs.«148818_j704374637025_1_alg».proof.Proof.Bias2
import proofs.«148818_j704374637025_1_alg».proof.Proof.Bias3
import proofs.«148818_j704374637025_1_alg».proof.Proof.Glue
import proofs.«148818_j704374637025_1_alg».proof.Proof.LayerAt

set_option maxRecDepth 16384

noncomputable section

namespace Cert.KernelIdeal.GcnValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- A buffer that no operation of a stretch writes holds after the stretch what it held before. -/
macro "host_untouched" : tactic => `(tactic| (
  refine StableHlo.after_of_forall_not_mem _ _ (List.forall_iff_forall_mem.mp ?_)
  simp only [hostOps0, hostOps1, hostOps3, hostOps5, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## The first layer's output, and the second's, as functions of the arguments -/

/-- The first layer: `max (A · (x · W1) + b1) 0`. -/
def hidden1 : (⟨Cert.ReferenceIdeal.S100000x128, .f32⟩ : BufTy).Contents (Elt Ideal) :=
  Gcn.relu128 (Gcn.addRow128 (Gcn.agg128 (Gcn.lin128 (m ((c : Thread nD τ).loc main_arg0)) (m ((c : Thread nD τ).loc main_arg3))) (Gcn.edgeSrc (m ((c : Thread nD τ).loc main_arg1))) (Gcn.edgeDst (m ((c : Thread nD τ).loc main_arg1))) (m ((c : Thread nD τ).loc main_arg2))) (Gcn.row128 (m ((c : Thread nD τ).loc main_arg4))))

/-- The second layer: `max (A · (h1 · W2) + b2) 0`. -/
def hidden2 : (⟨Cert.ReferenceIdeal.S100000x128, .f32⟩ : BufTy).Contents (Elt Ideal) :=
  Gcn.relu128 (Gcn.addRow128 (Gcn.agg128 (Gcn.lin128 (hidden1 m c) (m ((c : Thread nD τ).loc main_arg5))) (Gcn.edgeSrc (m ((c : Thread nD τ).loc main_arg1))) (Gcn.edgeDst (m ((c : Thread nD τ).loc main_arg1))) (m ((c : Thread nD τ).loc main_arg2))) (Gcn.row128 (m ((c : Thread nD τ).loc main_arg6))))

/-! ## The edge rows and the arguments at each boundary -/

theorem sources_at1 : W1 m ρ c (Proc.devRef .tc main_v1) = Gcn.edgeSrc (m ((c : Thread nD τ).loc main_arg1)) := sources_after (W0 m ρ c)
theorem destinations_at1 : W1 m ρ c (Proc.devRef .tc main_v3) = Gcn.edgeDst (m ((c : Thread nD τ).loc main_arg1)) := destinations_after (W0 m ρ c)
theorem sources_at2 : W2 m ρ c (Proc.devRef .tc main_v1) = Gcn.edgeSrc (m ((c : Thread nD τ).loc main_arg1)) :=
  (W2_of_ne m ρ c main_v1 (by decide)).trans (sources_at1 m ρ c)
theorem sources_at3 : W3 m ρ c (Proc.devRef .tc main_v1) = Gcn.edgeSrc (m ((c : Thread nD τ).loc main_arg1)) :=
  (by host_untouched : W3 m ρ c (Proc.devRef .tc main_v1) = W2 m ρ c (Proc.devRef .tc main_v1)).trans (sources_at2 m ρ c)
theorem sources_at4 : W4 m ρ c (Proc.devRef .tc main_v1) = Gcn.edgeSrc (m ((c : Thread nD τ).loc main_arg1)) :=
  (W4_of_ne m ρ c main_v1 (by decide)).trans (sources_at3 m ρ c)
theorem sources_at5 : W5 m ρ c (Proc.devRef .tc main_v1) = Gcn.edgeSrc (m ((c : Thread nD τ).loc main_arg1)) :=
  (W5_of_ne m ρ c main_v1 (by decide)).trans (sources_at4 m ρ c)
theorem sources_at6 : W6 m ρ c (Proc.devRef .tc main_v1) = Gcn.edgeSrc (m ((c : Thread nD τ).loc main_arg1)) :=
  (by host_untouched : W6 m ρ c (Proc.devRef .tc main_v1) = W5 m ρ c (Proc.devRef .tc main_v1)).trans (sources_at5 m ρ c)
theorem sources_at7 : W7 m ρ c (Proc.devRef .tc main_v1) = Gcn.edgeSrc (m ((c : Thread nD τ).loc main_arg1)) :=
  (W7_of_ne m ρ c main_v1 (by decide)).trans (sources_at6 m ρ c)
theorem sources_at8 : W8 m ρ c (Proc.devRef .tc main_v1) = Gcn.edgeSrc (m ((c : Thread nD τ).loc main_arg1)) :=
  (W8_of_ne m ρ c main_v1 (by decide)).trans (sources_at7 m ρ c)
theorem destinations_at2 : W2 m ρ c (Proc.devRef .tc main_v3) = Gcn.edgeDst (m ((c : Thread nD τ).loc main_arg1)) :=
  (W2_of_ne m ρ c main_v3 (by decide)).trans (destinations_at1 m ρ c)
theorem destinations_at3 : W3 m ρ c (Proc.devRef .tc main_v3) = Gcn.edgeDst (m ((c : Thread nD τ).loc main_arg1)) :=
  (by host_untouched : W3 m ρ c (Proc.devRef .tc main_v3) = W2 m ρ c (Proc.devRef .tc main_v3)).trans (destinations_at2 m ρ c)
theorem destinations_at4 : W4 m ρ c (Proc.devRef .tc main_v3) = Gcn.edgeDst (m ((c : Thread nD τ).loc main_arg1)) :=
  (W4_of_ne m ρ c main_v3 (by decide)).trans (destinations_at3 m ρ c)
theorem destinations_at5 : W5 m ρ c (Proc.devRef .tc main_v3) = Gcn.edgeDst (m ((c : Thread nD τ).loc main_arg1)) :=
  (W5_of_ne m ρ c main_v3 (by decide)).trans (destinations_at4 m ρ c)
theorem destinations_at6 : W6 m ρ c (Proc.devRef .tc main_v3) = Gcn.edgeDst (m ((c : Thread nD τ).loc main_arg1)) :=
  (by host_untouched : W6 m ρ c (Proc.devRef .tc main_v3) = W5 m ρ c (Proc.devRef .tc main_v3)).trans (destinations_at5 m ρ c)
theorem destinations_at7 : W7 m ρ c (Proc.devRef .tc main_v3) = Gcn.edgeDst (m ((c : Thread nD τ).loc main_arg1)) :=
  (W7_of_ne m ρ c main_v3 (by decide)).trans (destinations_at6 m ρ c)
theorem destinations_at8 : W8 m ρ c (Proc.devRef .tc main_v3) = Gcn.edgeDst (m ((c : Thread nD τ).loc main_arg1)) :=
  (W8_of_ne m ρ c main_v3 (by decide)).trans (destinations_at7 m ρ c)
theorem features_at1 : W1 m ρ c (Proc.devRef .tc main_arg0) = m ((c : Thread nD τ).loc main_arg0) :=
  (by host_untouched : W1 m ρ c (Proc.devRef .tc main_arg0) = W0 m ρ c (Proc.devRef .tc main_arg0)).trans rfl
theorem weights_at1 : W1 m ρ c (Proc.devRef .tc main_arg2) = m ((c : Thread nD τ).loc main_arg2) :=
  (by host_untouched : W1 m ρ c (Proc.devRef .tc main_arg2) = W0 m ρ c (Proc.devRef .tc main_arg2)).trans rfl
theorem weights_at2 : W2 m ρ c (Proc.devRef .tc main_arg2) = m ((c : Thread nD τ).loc main_arg2) :=
  (W2_of_ne m ρ c main_arg2 (by decide)).trans (weights_at1 m ρ c)
theorem weights_at3 : W3 m ρ c (Proc.devRef .tc main_arg2) = m ((c : Thread nD τ).loc main_arg2) :=
  (by host_untouched : W3 m ρ c (Proc.devRef .tc main_arg2) = W2 m ρ c (Proc.devRef .tc main_arg2)).trans (weights_at2 m ρ c)
theorem weights_at4 : W4 m ρ c (Proc.devRef .tc main_arg2) = m ((c : Thread nD τ).loc main_arg2) :=
  (W4_of_ne m ρ c main_arg2 (by decide)).trans (weights_at3 m ρ c)
theorem weights_at5 : W5 m ρ c (Proc.devRef .tc main_arg2) = m ((c : Thread nD τ).loc main_arg2) :=
  (W5_of_ne m ρ c main_arg2 (by decide)).trans (weights_at4 m ρ c)
theorem weights_at6 : W6 m ρ c (Proc.devRef .tc main_arg2) = m ((c : Thread nD τ).loc main_arg2) :=
  (by host_untouched : W6 m ρ c (Proc.devRef .tc main_arg2) = W5 m ρ c (Proc.devRef .tc main_arg2)).trans (weights_at5 m ρ c)
theorem weights_at7 : W7 m ρ c (Proc.devRef .tc main_arg2) = m ((c : Thread nD τ).loc main_arg2) :=
  (W7_of_ne m ρ c main_arg2 (by decide)).trans (weights_at6 m ρ c)
theorem weights_at8 : W8 m ρ c (Proc.devRef .tc main_arg2) = m ((c : Thread nD τ).loc main_arg2) :=
  (W8_of_ne m ρ c main_arg2 (by decide)).trans (weights_at7 m ρ c)
theorem matrix1_at1 : W1 m ρ c (Proc.devRef .tc main_arg3) = m ((c : Thread nD τ).loc main_arg3) :=
  (by host_untouched : W1 m ρ c (Proc.devRef .tc main_arg3) = W0 m ρ c (Proc.devRef .tc main_arg3)).trans rfl
theorem bias1_at1 : W1 m ρ c (Proc.devRef .tc main_arg4) = m ((c : Thread nD τ).loc main_arg4) :=
  (by host_untouched : W1 m ρ c (Proc.devRef .tc main_arg4) = W0 m ρ c (Proc.devRef .tc main_arg4)).trans rfl
theorem bias1_at2 : W2 m ρ c (Proc.devRef .tc main_arg4) = m ((c : Thread nD τ).loc main_arg4) :=
  (W2_of_ne m ρ c main_arg4 (by decide)).trans (bias1_at1 m ρ c)
theorem matrix2_at1 : W1 m ρ c (Proc.devRef .tc main_arg5) = m ((c : Thread nD τ).loc main_arg5) :=
  (by host_untouched : W1 m ρ c (Proc.devRef .tc main_arg5) = W0 m ρ c (Proc.devRef .tc main_arg5)).trans rfl
theorem matrix2_at2 : W2 m ρ c (Proc.devRef .tc main_arg5) = m ((c : Thread nD τ).loc main_arg5) :=
  (W2_of_ne m ρ c main_arg5 (by decide)).trans (matrix2_at1 m ρ c)
theorem matrix2_at3 : W3 m ρ c (Proc.devRef .tc main_arg5) = m ((c : Thread nD τ).loc main_arg5) :=
  (by host_untouched : W3 m ρ c (Proc.devRef .tc main_arg5) = W2 m ρ c (Proc.devRef .tc main_arg5)).trans (matrix2_at2 m ρ c)
theorem matrix2_at4 : W4 m ρ c (Proc.devRef .tc main_arg5) = m ((c : Thread nD τ).loc main_arg5) :=
  (W4_of_ne m ρ c main_arg5 (by decide)).trans (matrix2_at3 m ρ c)
theorem bias2_at1 : W1 m ρ c (Proc.devRef .tc main_arg6) = m ((c : Thread nD τ).loc main_arg6) :=
  (by host_untouched : W1 m ρ c (Proc.devRef .tc main_arg6) = W0 m ρ c (Proc.devRef .tc main_arg6)).trans rfl
theorem bias2_at2 : W2 m ρ c (Proc.devRef .tc main_arg6) = m ((c : Thread nD τ).loc main_arg6) :=
  (W2_of_ne m ρ c main_arg6 (by decide)).trans (bias2_at1 m ρ c)
theorem bias2_at3 : W3 m ρ c (Proc.devRef .tc main_arg6) = m ((c : Thread nD τ).loc main_arg6) :=
  (by host_untouched : W3 m ρ c (Proc.devRef .tc main_arg6) = W2 m ρ c (Proc.devRef .tc main_arg6)).trans (bias2_at2 m ρ c)
theorem bias2_at4 : W4 m ρ c (Proc.devRef .tc main_arg6) = m ((c : Thread nD τ).loc main_arg6) :=
  (W4_of_ne m ρ c main_arg6 (by decide)).trans (bias2_at3 m ρ c)
theorem bias2_at5 : W5 m ρ c (Proc.devRef .tc main_arg6) = m ((c : Thread nD τ).loc main_arg6) :=
  (W5_of_ne m ρ c main_arg6 (by decide)).trans (bias2_at4 m ρ c)
theorem matrix3_at1 : W1 m ρ c (Proc.devRef .tc main_arg7) = m ((c : Thread nD τ).loc main_arg7) :=
  (by host_untouched : W1 m ρ c (Proc.devRef .tc main_arg7) = W0 m ρ c (Proc.devRef .tc main_arg7)).trans rfl
theorem matrix3_at2 : W2 m ρ c (Proc.devRef .tc main_arg7) = m ((c : Thread nD τ).loc main_arg7) :=
  (W2_of_ne m ρ c main_arg7 (by decide)).trans (matrix3_at1 m ρ c)
theorem matrix3_at3 : W3 m ρ c (Proc.devRef .tc main_arg7) = m ((c : Thread nD τ).loc main_arg7) :=
  (by host_untouched : W3 m ρ c (Proc.devRef .tc main_arg7) = W2 m ρ c (Proc.devRef .tc main_arg7)).trans (matrix3_at2 m ρ c)
theorem matrix3_at4 : W4 m ρ c (Proc.devRef .tc main_arg7) = m ((c : Thread nD τ).loc main_arg7) :=
  (W4_of_ne m ρ c main_arg7 (by decide)).trans (matrix3_at3 m ρ c)
theorem matrix3_at5 : W5 m ρ c (Proc.devRef .tc main_arg7) = m ((c : Thread nD τ).loc main_arg7) :=
  (W5_of_ne m ρ c main_arg7 (by decide)).trans (matrix3_at4 m ρ c)
theorem matrix3_at6 : W6 m ρ c (Proc.devRef .tc main_arg7) = m ((c : Thread nD τ).loc main_arg7) :=
  (by host_untouched : W6 m ρ c (Proc.devRef .tc main_arg7) = W5 m ρ c (Proc.devRef .tc main_arg7)).trans (matrix3_at5 m ρ c)
theorem matrix3_at7 : W7 m ρ c (Proc.devRef .tc main_arg7) = m ((c : Thread nD τ).loc main_arg7) :=
  (W7_of_ne m ρ c main_arg7 (by decide)).trans (matrix3_at6 m ρ c)
theorem bias3_at1 : W1 m ρ c (Proc.devRef .tc main_arg8) = m ((c : Thread nD τ).loc main_arg8) :=
  (by host_untouched : W1 m ρ c (Proc.devRef .tc main_arg8) = W0 m ρ c (Proc.devRef .tc main_arg8)).trans rfl
theorem bias3_at2 : W2 m ρ c (Proc.devRef .tc main_arg8) = m ((c : Thread nD τ).loc main_arg8) :=
  (W2_of_ne m ρ c main_arg8 (by decide)).trans (bias3_at1 m ρ c)
theorem bias3_at3 : W3 m ρ c (Proc.devRef .tc main_arg8) = m ((c : Thread nD τ).loc main_arg8) :=
  (by host_untouched : W3 m ρ c (Proc.devRef .tc main_arg8) = W2 m ρ c (Proc.devRef .tc main_arg8)).trans (bias3_at2 m ρ c)
theorem bias3_at4 : W4 m ρ c (Proc.devRef .tc main_arg8) = m ((c : Thread nD τ).loc main_arg8) :=
  (W4_of_ne m ρ c main_arg8 (by decide)).trans (bias3_at3 m ρ c)
theorem bias3_at5 : W5 m ρ c (Proc.devRef .tc main_arg8) = m ((c : Thread nD τ).loc main_arg8) :=
  (W5_of_ne m ρ c main_arg8 (by decide)).trans (bias3_at4 m ρ c)
theorem bias3_at6 : W6 m ρ c (Proc.devRef .tc main_arg8) = m ((c : Thread nD τ).loc main_arg8) :=
  (by host_untouched : W6 m ρ c (Proc.devRef .tc main_arg8) = W5 m ρ c (Proc.devRef .tc main_arg8)).trans (bias3_at5 m ρ c)
theorem bias3_at7 : W7 m ρ c (Proc.devRef .tc main_arg8) = m ((c : Thread nD τ).loc main_arg8) :=
  (W7_of_ne m ρ c main_arg8 (by decide)).trans (bias3_at6 m ρ c)
theorem bias3_at8 : W8 m ρ c (Proc.devRef .tc main_arg8) = m ((c : Thread nD τ).loc main_arg8) :=
  (W8_of_ne m ρ c main_arg8 (by decide)).trans (bias3_at7 m ρ c)

/-! ## The first layer -/

theorem product_at2 : W2 m ρ c (Proc.devRef .tc main_v4) = Gcn.lin128 (m ((c : Thread nD τ).loc main_arg0)) (m ((c : Thread nD τ).loc main_arg3)) := by
  refine (W2_arr m ρ c 2).trans ((product0 (V1 m ρ) c).trans ?_)
  show Gcn.lin128 (W1 m ρ c (Proc.devRef .tc main_arg0)) (W1 m ρ c (Proc.devRef .tc main_arg3)) = _
  rw [features_at1, matrix1_at1]

theorem aggregate_at3 : W3 m ρ c (Proc.devRef .tc main_v17) = Gcn.agg128 (Gcn.lin128 (m ((c : Thread nD τ).loc main_arg0)) (m ((c : Thread nD τ).loc main_arg3))) (Gcn.edgeSrc (m ((c : Thread nD τ).loc main_arg1))) (Gcn.edgeDst (m ((c : Thread nD τ).loc main_arg1))) (m ((c : Thread nD τ).loc main_arg2)) := by
  refine (aggregate_first (W2 m ρ c)).trans ?_
  rw [product_at2, sources_at2, destinations_at2, weights_at2]

theorem row_at3 : W3 m ρ c (Proc.devRef .tc main_v18) = Gcn.row128 (m ((c : Thread nD τ).loc main_arg4)) := by
  refine (bias_row_first (W2 m ρ c)).trans ?_
  rw [bias1_at2]
  exact Gcn.reshape_row128 _ _

theorem hidden1_at4 : W4 m ρ c (Proc.devRef .tc main_v19) = hidden1 m c := by
  refine (W4_arr m ρ c 2).trans ((biased1 (V3 m ρ) c).trans ?_)
  show Gcn.relu128 (Gcn.addRow128 (W3 m ρ c (Proc.devRef .tc main_v17)) (W3 m ρ c (Proc.devRef .tc main_v18))) = _
  rw [aggregate_at3, row_at3]
  rfl

/-! ## The second layer -/

theorem product_at5 : W5 m ρ c (Proc.devRef .tc main_v20) = Gcn.lin128 (hidden1 m c) (m ((c : Thread nD τ).loc main_arg5)) := by
  refine (W5_arr m ρ c 2).trans ((product2 (V4 m ρ) c).trans ?_)
  show Gcn.lin128 (W4 m ρ c (Proc.devRef .tc main_v19)) (W4 m ρ c (Proc.devRef .tc main_arg5)) = _
  rw [hidden1_at4, matrix2_at4]

theorem aggregate_at6 : W6 m ρ c (Proc.devRef .tc main_v33) = Gcn.agg128 (Gcn.lin128 (hidden1 m c) (m ((c : Thread nD τ).loc main_arg5))) (Gcn.edgeSrc (m ((c : Thread nD τ).loc main_arg1))) (Gcn.edgeDst (m ((c : Thread nD τ).loc main_arg1))) (m ((c : Thread nD τ).loc main_arg2)) := by
  refine (aggregate_second (W5 m ρ c)).trans ?_
  rw [product_at5, sources_at5, destinations_at5, weights_at5]

theorem row_at6 : W6 m ρ c (Proc.devRef .tc main_v34) = Gcn.row128 (m ((c : Thread nD τ).loc main_arg6)) := by
  refine (bias_row_second (W5 m ρ c)).trans ?_
  rw [bias2_at5]
  exact Gcn.reshape_row128 _ _

theorem hidden2_at7 : W7 m ρ c (Proc.devRef .tc main_v35) = hidden2 m c := by
  refine (W7_arr m ρ c 2).trans ((biased3 (V6 m ρ) c).trans ?_)
  show Gcn.relu128 (Gcn.addRow128 (W6 m ρ c (Proc.devRef .tc main_v33)) (W6 m ρ c (Proc.devRef .tc main_v34))) = _
  rw [aggregate_at6, row_at6]
  rfl

/-! ## The third layer -/

theorem product_at8 : W8 m ρ c (Proc.devRef .tc main_v36) = Gcn.lin64 (hidden2 m c) (m ((c : Thread nD τ).loc main_arg7)) := by
  refine (W8_arr m ρ c 2).trans ((product4 (V7 m ρ) c).trans ?_)
  show Gcn.lin64 (W7 m ρ c (Proc.devRef .tc main_v35)) (W7 m ρ c (Proc.devRef .tc main_arg7)) = _
  rw [hidden2_at7, matrix3_at7]

theorem aggregate_at9 : W9 m ρ c (Proc.devRef .tc main_v49) = Gcn.agg64 (Gcn.lin64 (hidden2 m c) (m ((c : Thread nD τ).loc main_arg7))) (Gcn.edgeSrc (m ((c : Thread nD τ).loc main_arg1))) (Gcn.edgeDst (m ((c : Thread nD τ).loc main_arg1))) (m ((c : Thread nD τ).loc main_arg2)) := by
  refine (aggregate_third (W8 m ρ c)).trans ?_
  rw [product_at8, sources_at8, destinations_at8, weights_at8]

theorem row_at9 : W9 m ρ c (Proc.devRef .tc main_v50) = Gcn.row64 (m ((c : Thread nD τ).loc main_arg8)) := by
  refine (bias_row_third (W8 m ρ c)).trans ?_
  rw [bias3_at8]
  exact Gcn.reshape_row64 _ _

/-- The result buffer at the return: the network of the arguments. -/
theorem result_at10 : W10 m ρ c (Proc.devRef .tc main_v51)
    = Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((biased5 (V9 m ρ) c).trans ?_)
  show Gcn.addRow64 (W9 m ρ c (Proc.devRef .tc main_v49)) (W9 m ρ c (Proc.devRef .tc main_v50)) = _
  rw [aggregate_at9, row_at9]
  rfl

end Cert.KernelIdeal.GcnValue

end
-- ==== Proof.lean ====
/-
  A three-layer graph convolution network over one hundred thousand nodes and 1.6 million weighted edges: the kernel
  computes each layer's dense product `h · W` and its bias-and-clamp stage in grid regions of ten thousand rows, and the
  weighted adjacency product between them in host operations; the reference computes the same three layers in host
  operations alone.

  At the ideal values both results are ONE function of the arguments, `Gcn.net` (Proof/Layer.lean):
    h1 = max (A · (x · W1) + b1) 0,  h2 = max (A · (h1 · W2) + b2) 0,  out = A · (h2 · W3) + b3,
  where `A · y` adds, for every edge, the source row of `y` scaled by the edge's weight into the destination row.
  - The reference's composed result term is `net` of its arguments by unfolding (`Gcn.reference_is_net`).
  - The kernel's result buffer ends at `net` of its arguments (`GcnValue.result_at10`): each product region leaves `x · W`
    of the arrays it finds — entry by entry the same finite sum, the kernel's change of format being the identity on the
    extended reals and its accumulator zero —, each bias region the biased (and clamped) array, and the host operations
    between them are the reference's own.
  No law of the extended reals beyond `0 + s = s` is used, so the precondition is never opened.
-/
import proofs.«148818_j704374637025_1_alg».proof.Defs
import proofs.«148818_j704374637025_1_alg».proof.Proof.Gen.Kernel
import proofs.«148818_j704374637025_1_alg».proof.Proof.Gen.Kernel.Skeleton
import proofs.«148818_j704374637025_1_alg».proof.Proof.Gen.Kernel.Launch
import proofs.«148818_j704374637025_1_alg».proof.Proof.Gen.Kernel.Points
import proofs.«148818_j704374637025_1_alg».proof.Proof.Gen.Kernel.Frame
import proofs.«148818_j704374637025_1_alg».proof.Proof.Gen.KernelIdeal
import proofs.«148818_j704374637025_1_alg».proof.Proof.Gen.KernelIdeal.Skeleton
import proofs.«148818_j704374637025_1_alg».proof.Proof.Gen.KernelIdeal.Launch
import proofs.«148818_j704374637025_1_alg».proof.Proof.Gen.KernelIdeal.Points
import proofs.«148818_j704374637025_1_alg».proof.Proof.Gen.KernelIdeal.Frame
import proofs.«148818_j704374637025_1_alg».proof.Proof.Gen.ReferenceIdeal
import proofs.«148818_j704374637025_1_alg».proof.Proof.Gen.ReferenceIdeal.Run
import proofs.«148818_j704374637025_1_alg».proof.Proof.Gen.ReferenceIdeal.Read
import proofs.«148818_j704374637025_1_alg».proof.Proof.Gen.Pre_finite_inputs
import proofs.«148818_j704374637025_1_alg».proof.Proof.Layer
import proofs.«148818_j704374637025_1_alg».proof.Proof.KernelRun
import proofs.«148818_j704374637025_1_alg».proof.Proof.Chain
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The idealized kernel's run with its result at the network of the arguments. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v51)
          = Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
              (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
              (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono
    (fun _ h c => ⟨(h c).1.trans (Cert.KernelIdeal.GcnValue.result_at10 m ρ c), (h c).2⟩)
    (Cert.KernelIdeal.GcnRun.run_named (F := Ideal) m ρ)

/-- From memories that agree on the nine arguments both programs end with the network of those arguments in their
    result buffers. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.Gcn.reference_is_net, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
